-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x48 : Shape := ⟨2, ![256, 48]⟩
abbrev S48 : Shape := ⟨1, ![48]⟩
abbrev S48x16 : Shape := ⟨2, ![48, 16]⟩
abbrev S16 : Shape := ⟨1, ![16]⟩
abbrev S100000x48 : Shape := ⟨2, ![100000, 48]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x48 : S_.BroadcastsInDim S256x48 (![] : Fin 0 → Fin S256x48.rank)
  reducesTo_S256x48_S_d0_1 : S256x48.ReducesTo [0, 1] S_
  bcast_S_S48 : S_.BroadcastsInDim S48 (![] : Fin 0 → Fin S48.rank)
  reducesTo_S48_S_d0 : S48.ReducesTo [0] S_
  bcast_S_S48x16 : S_.BroadcastsInDim S48x16 (![] : Fin 0 → Fin S48x16.rank)
  reducesTo_S48x16_S_d0_1 : S48x16.ReducesTo [0, 1] S_
  bcast_S_S16 : S_.BroadcastsInDim S16 (![] : Fin 0 → Fin S16.rank)
  reducesTo_S16_S_d0 : S16.ReducesTo [0] S_
  bcast_S_S100000x48 : S_.BroadcastsInDim S100000x48 (![] : Fin 0 → Fin S100000x48.rank)
  reducesTo_S100000x48_S_d0_1 : S100000x48.ReducesTo [0, 1] S_

variable [Facts]

def fn_part1 {F : FTy → Type} [FloatOps F] (main_arg5 : FVec F S48x16 .f32) (main_arg6 : FVec F S16 .f32) (main_arg7 : FVec F S100000x48 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S48x16 .f32 := Host.absf main_arg5
  let main_cst_6 : FVec F S_ .f32 := constant S_ .f32 0x7F800000#32
  let main_v20 : FVec F S48x16 .f32 := broadcastInDim S48x16 ![] bcast_S_S48x16 main_cst_6
  let main_v21 : IVec S48x16 1 := cmpf .olt main_v19 main_v20
  let main_c_7 : IVec S_ 1 := constantI S_ 1 1#1
  let main_v22 : IVec S_ 1 := (fun x v => Host.reduce IntOp.andi x v reducesTo_S48x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S100000x48 .f32 := Host.absf main_arg7
  let main_cst_10 : FVec F S_ .f32 := constant S_ .f32 0x7F800000#32
  let main_v30 : FVec F S100000x48 .f32 := broadcastInDim S100000x48 ![] bcast_S_S100000x48 main_cst_10
  let main_v31 : IVec S100000x48 1 := cmpf .olt main_v29 main_v30
  let main_c_11 : IVec S_ 1 := constantI S_ 1 1#1
  let main_v32 : IVec S_ 1 := (fun x v => Host.reduce IntOp.andi x v reducesTo_S100000x48_S_d0_1 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S1600000 .f32) (main_arg3 : FVec F S256x48 .f32) (main_arg4 : FVec F S48 .f32) (main_arg5 : FVec F S48x16 .f32) (main_arg6 : FVec F S16 .f32) (main_arg7 : FVec F S100000x48 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x48 .f32 := Host.absf main_arg3
  let main_cst_2 : FVec F S_ .f32 := constant S_ .f32 0x7F800000#32
  let main_v10 : FVec F S256x48 .f32 := broadcastInDim S256x48 ![] bcast_S_S256x48 main_cst_2
  let main_v11 : IVec S256x48 1 := cmpf .olt main_v9 main_v10
  let main_c_3 : IVec S_ 1 := constantI S_ 1 1#1
  let main_v12 : IVec S_ 1 := (fun x v => Host.reduce IntOp.andi x v reducesTo_S256x48_S_d0_1 h_S_) main_v11 main_c_3
  let main_v13 : IVec S_ 1 := andi main_v8 main_v12
  let main_v14 : FVec F S48 .f32 := Host.absf main_arg4
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x48 : Shape := ⟨2, ![256, 48]⟩
abbrev S48 : Shape := ⟨1, ![48]⟩
abbrev S48x16 : Shape := ⟨2, ![48, 16]⟩
abbrev S16 : Shape := ⟨1, ![16]⟩
abbrev S100000x48 : Shape := ⟨2, ![100000, 48]⟩
abbrev S1x1600000 : Shape := ⟨2, ![1, 1600000]⟩
abbrev S1600000x1 : Shape := ⟨2, ![1600000, 1]⟩
abbrev S2000x256 : Shape := ⟨2, ![2000, 256]⟩
abbrev S2000x48 : Shape := ⟨2, ![2000, 48]⟩
abbrev S_ : Shape := ⟨0, ![]⟩
abbrev S1600000x48 : Shape := ⟨2, ![1600000, 48]⟩
abbrev S1x48 : Shape := ⟨2, ![1, 48]⟩
abbrev S100000x16 : Shape := ⟨2, ![100000, 16]⟩
abbrev S2000x16 : Shape := ⟨2, ![2000, 16]⟩
abbrev S1600000x16 : Shape := ⟨2, ![1600000, 16]⟩
abbrev S1x16 : Shape := ⟨2, ![1, 16]⟩

abbrev nBuf : Space → Nat
  | .hbm => 50
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x48, .f32⟩
  | .hbm, ⟨4, _⟩ => ⟨S48, .f32⟩
  | .hbm, ⟨5, _⟩ => ⟨S48x16, .f32⟩
  | .hbm, ⟨6, _⟩ => ⟨S16, .f32⟩
  | .hbm, ⟨7, _⟩ => ⟨S100000x48, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000x1, .f32⟩
  | .hbm, ⟨13, _⟩ => ⟨S100000x48, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x48, .f32⟩
  | .hbm, ⟨23, _⟩ => ⟨S1600000x48, .f32⟩
  | .hbm, ⟨24, _⟩ => ⟨S1600000x48, .f32⟩
  | .hbm, ⟨25, _⟩ => ⟨S_, .f32⟩
  | .hbm, ⟨26, _⟩ => ⟨S100000x48, .f32⟩
  | .hbm, ⟨27, _⟩ => ⟨S1600000x1, .i32⟩
  | .hbm, ⟨28, _⟩ => ⟨S100000x48, .f32⟩
  | .hbm, ⟨29, _⟩ => ⟨S1x48, .f32⟩
  | .hbm, ⟨30, _⟩ => ⟨S100000x48, .f32⟩
  | .hbm, ⟨31, _⟩ => ⟨S100000x16, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x16, .f32⟩
  | .hbm, ⟨41, _⟩ => ⟨S1600000x16, .f32⟩
  | .hbm, ⟨42, _⟩ => ⟨S1600000x16, .f32⟩
  | .hbm, ⟨43, _⟩ => ⟨S_, .f32⟩
  | .hbm, ⟨44, _⟩ => ⟨S100000x16, .f32⟩
  | .hbm, ⟨45, _⟩ => ⟨S1600000x1, .i32⟩
  | .hbm, ⟨46, _⟩ => ⟨S100000x16, .f32⟩
  | .hbm, ⟨47, _⟩ => ⟨S1x16, .f32⟩
  | .hbm, ⟨48, _⟩ => ⟨S100000x16, .f32⟩
  | .hbm, ⟨49, _⟩ => ⟨S100000x16, .f32⟩
  | .local _ .vmem, ⟨0, _⟩ => ⟨S2000x256, .f32⟩
  | .local _ .vmem, ⟨1, _⟩ => ⟨S2000x256, .f32⟩
  | .local _ .vmem, ⟨2, _⟩ => ⟨S256x48, .f32⟩
  | .local _ .vmem, ⟨3, _⟩ => ⟨S2000x48, .f32⟩
  | .local _ .vmem, ⟨4, _⟩ => ⟨S2000x48, .f32⟩
  | .local _ .vmem, ⟨5, _⟩ => ⟨S2000x48, .f32⟩
  | .local _ .vmem, ⟨6, _⟩ => ⟨S2000x48, .f32⟩
  | .local _ .vmem, ⟨7, _⟩ => ⟨S1x48, .f32⟩
  | .local _ .vmem, ⟨8, _⟩ => ⟨S2000x48, .f32⟩
  | .local _ .vmem, ⟨9, _⟩ => ⟨S2000x48, .f32⟩
  | .local _ .vmem, ⟨10, _⟩ => ⟨S2000x48, .f32⟩
  | .local _ .vmem, ⟨11, _⟩ => ⟨S2000x48, .f32⟩
  | .local _ .vmem, ⟨12, _⟩ => ⟨S2000x48, .f32⟩
  | .local _ .vmem, ⟨13, _⟩ => ⟨S2000x48, .f32⟩
  | .local _ .vmem, ⟨14, _⟩ => ⟨S48x16, .f32⟩
  | .local _ .vmem, ⟨15, _⟩ => ⟨S2000x16, .f32⟩
  | .local _ .vmem, ⟨16, _⟩ => ⟨S2000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x48 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S48x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x48_S256x48_0_0 : ∀ a, (![0, 0] : Fin 2 → Nat) a + S256x48.size a ≤ S256x48.size a
  h_S256x48 : 0 < S256x48.numel
  inb_S2000x48_S2000x48_0_0 : ∀ a, (![0, 0] : Fin 2 → Nat) a + S2000x48.size a ≤ S2000x48.size a
  h_S2000x48 : 0 < S2000x48.numel
  bcast_S_S1600000 : S_.BroadcastsInDim S1600000 (![] : Fin 0 → Fin S1600000.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  shapeCasts_S48_S1x48 : S48.ShapeCasts S1x48
  shapeCasts_S2000x48_S2000x48 : S2000x48.ShapeCasts S2000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S2000x48 : S1x48.Broadcasts S2000x48
  inb_S48x16_S48x16_0_0 : ∀ a, (![0, 0] : Fin 2 → Nat) a + S48x16.size a ≤ S48x16.size a
  h_S48x16 : 0 < S48x16.numel
  inb_S2000x16_S2000x16_0_0 : ∀ a, (![0, 0] : Fin 2 → Nat) a + S2000x16.size a ≤ S2000x16.size a
  h_S2000x16 : 0 < S2000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S2000x256_S256x48_S2000x48_1_0_0_1_n_n_wf : DotDims.WF S2000x256 S256x48 S2000x48 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S2000x48_S48x16_S2000x16_1_0_0_1_n_n_wf : DotDims.WF S2000x48 S48x16 S2000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x48.size a ≤ S256x48.size a
  hwx0_1 : ∀ i : grid0.Coords, EltTy.bits .f32 = 32 ∨ (Rect.block (s := S256x48) S256x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x48.size a ≤ S100000x48.size a
  hwx0_2 : ∀ i : grid0.Coords, EltTy.bits .f32 = 32 ∨ (Rect.block (s := S100000x48) S2000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x48.size a ≤ S100000x48.size a
  hwx1_0 : ∀ i : grid1.Coords, EltTy.bits .f32 = 32 ∨ (Rect.block (s := S100000x48) S2000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x48.size a ≤ S100000x48.size a
  hwx1_2 : ∀ i : grid1.Coords, EltTy.bits .f32 = 32 ∨ (Rect.block (s := S100000x48) S2000x48.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x48.size a ≤ S100000x48.size a
  hwx1_3 : ∀ i : grid1.Coords, EltTy.bits .f32 = 32 ∨ (Rect.block (s := S100000x48) S2000x48.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x48.size a ≤ S100000x48.size a
  hwx2_0 : ∀ i : grid2.Coords, EltTy.bits .f32 = 32 ∨ (Rect.block (s := S100000x48) S2000x48.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S48x16.size a ≤ S48x16.size a
  hwx2_1 : ∀ i : grid2.Coords, EltTy.bits .f32 = 32 ∨ (Rect.block (s := S48x16) S48x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)

variable [Facts₀]

def dot_S2000x256_S256x48_S2000x48_1_0_0_1_n_n : DotDims S2000x256 S256x48 S2000x48 where
  lhsContracting := [1]
  rhsContracting := [0]
  lhsNonContracting := [0]
  rhsNonContracting := [1]
  lhsBatch := []
  rhsBatch := []
  wf := dot_S2000x256_S256x48_S2000x48_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S2000x48_S48x16_S2000x16_1_0_0_1_n_n : DotDims S2000x48 S48x16 S2000x16 where
  lhsContracting := [1]
  rhsContracting := [0]
  lhsNonContracting := [0]
  rhsNonContracting := [1]
  lhsBatch := []
  rhsBatch := []
  wf := dot_S2000x48_S48x16_S2000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S2000x48.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x48.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S2000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S48x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x48 : Shape := ⟨2, ![256, 48]⟩
abbrev S48 : Shape := ⟨1, ![48]⟩
abbrev S48x16 : Shape := ⟨2, ![48, 16]⟩
abbrev S16 : Shape := ⟨1, ![16]⟩
abbrev S100000x48 : Shape := ⟨2, ![100000, 48]⟩
abbrev S1x1600000 : Shape := ⟨2, ![1, 1600000]⟩
abbrev S_ : Shape := ⟨0, ![]⟩
abbrev S1600000x1 : Shape := ⟨2, ![1600000, 1]⟩
abbrev S1600000x48 : Shape := ⟨2, ![1600000, 48]⟩
abbrev S1x48 : Shape := ⟨2, ![1, 48]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 56
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x48, .f32⟩
  | .hbm, ⟨4, _⟩ => ⟨S48, .f32⟩
  | .hbm, ⟨5, _⟩ => ⟨S48x16, .f32⟩
  | .hbm, ⟨6, _⟩ => ⟨S16, .f32⟩
  | .hbm, ⟨7, _⟩ => ⟨S100000x48, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x48, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x48, .f32⟩
  | .hbm, ⟨22, _⟩ => ⟨S1600000x1, .f32⟩
  | .hbm, ⟨23, _⟩ => ⟨S1600000x48, .f32⟩
  | .hbm, ⟨24, _⟩ => ⟨S1600000x48, .f32⟩
  | .hbm, ⟨25, _⟩ => ⟨S_, .f32⟩
  | .hbm, ⟨26, _⟩ => ⟨S100000x48, .f32⟩
  | .hbm, ⟨27, _⟩ => ⟨S1600000x1, .i32⟩
  | .hbm, ⟨28, _⟩ => ⟨S100000x48, .f32⟩
  | .hbm, ⟨29, _⟩ => ⟨S1x48, .f32⟩
  | .hbm, ⟨30, _⟩ => ⟨S100000x48, .f32⟩
  | .hbm, ⟨31, _⟩ => ⟨S100000x48, .f32⟩
  | .hbm, ⟨32, _⟩ => ⟨S_, .f32⟩
  | .hbm, ⟨33, _⟩ => ⟨S100000x48, .f32⟩
  | .hbm, ⟨34, _⟩ => ⟨S100000x48, .f32⟩
  | .hbm, ⟨35, _⟩ => ⟨S100000x48, .f32⟩
  | .hbm, ⟨36, _⟩ => ⟨S100000x16, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x16, .f32⟩
  | .hbm, ⟨46, _⟩ => ⟨S1600000x1, .f32⟩
  | .hbm, ⟨47, _⟩ => ⟨S1600000x16, .f32⟩
  | .hbm, ⟨48, _⟩ => ⟨S1600000x16, .f32⟩
  | .hbm, ⟨49, _⟩ => ⟨S_, .f32⟩
  | .hbm, ⟨50, _⟩ => ⟨S100000x16, .f32⟩
  | .hbm, ⟨51, _⟩ => ⟨S1600000x1, .i32⟩
  | .hbm, ⟨52, _⟩ => ⟨S100000x16, .f32⟩
  | .hbm, ⟨53, _⟩ => ⟨S1x16, .f32⟩
  | .hbm, ⟨54, _⟩ => ⟨S100000x16, .f32⟩
  | .hbm, ⟨55, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_1 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x256_S256x48_S100000x48_1_0_0_1_n_n_wf : DotDims.WF S100000x256 S256x48 S100000x48 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x16_S100000x16_1_0_0_1_n_n_wf : DotDims.WF S100000x48 S48x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def dot_S100000x256_S256x48_S100000x48_1_0_0_1_n_n : DotDims S100000x256 S256x48 S100000x48 where
  lhsContracting := [1]
  rhsContracting := [0]
  lhsNonContracting := [0]
  rhsNonContracting := [1]
  lhsBatch := []
  rhsBatch := []
  wf := dot_S100000x256_S256x48_S100000x48_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x16_S100000x16_1_0_0_1_n_n : DotDims S100000x48 S48x16 S100000x16 where
  lhsContracting := [1]
  rhsContracting := [0]
  lhsNonContracting := [0]
  rhsNonContracting := [1]
  lhsBatch := []
  rhsBatch := []
  wf := dot_S100000x48_S48x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.KernelRun.lean ====
/-
  The idealized kernel's run with its result array named.

  The program is three grid regions among stretches of host operations. Its run is a chain of segments, each
  entered from the buffer contents the previous one leaves; the last segment leaves every unscoped buffer at the
  contents `W6`. The frame reads only the argument arrays out of that last state. Here the same launch over the same
  segments is read once more at the result array as well: after the run it holds `W6` at the result's buffer, and the
  arguments are as launched.
-/
import proofs.«118729_j87814901334231_1_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array holding the last
    boundary's contents at its buffer and every argument array what it held at launch. -/
theorem run_out : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Outcome

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Region0.lean ====
/-
  The first linear layer: what its grid region leaves in its result array.

  The region has fifty points. Point t multiplies rows 2000·t … 2000·t + 1999 of the node features (256 columns) by
  the whole 256 × 48 weight matrix and writes those rows of the product. The row blocks tile the 100000 × 48 array,
  so after the region the array holds the product of the two matrices the region was entered with: entry (r, j) is
  the sum over k of X (r, k) · W (k, j) — the same finite sum the host's contraction of the whole matrices has there.
-/
import proofs.«118729_j87814901334231_1_alg».proof.Proof.Gen.KernelIdeal.Frame
import proofs.«118729_j87814901334231_1_alg».proof.Proof.Gen.ReferenceIdeal.Read
import proofs.«118729_j87814901334231_1_alg».proof.Proof.LibContractPlain
import Idealize.ShloMosaic.Lib.Pipeline.Value
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

-- the buffer contents the region is entered with: any
variable (V : (c : Dev nD) → (b : Ref sig .tc) → Buf (Elt Ideal) ((c : Thread nD τ).loc b))

theorem zero_off : (![0, 0] : Fin 2 → Nat) = fun _ => 0 := funext fun a => by fin_cases a <;> rfl

/-- One block's product at entry (p, q): the sum over the contracted coordinate k of the row block at (p, k) times
    the weights at (k, q). The narrowing of both operands before the product is the identity on the extended reals,
    and the accumulator the product is added into is zero. -/
theorem block_at (x0 : Vec Ideal S2000x256 .f32) (x1 : Vec Ideal S256x48 .f32) (p : Fin 2000) (q : Fin 48) :
    k0_pay1 (F := Ideal) x0 x1 (ix2 p q) = ∑ k : Fin 256, x0 (ix2 p k) * x1 (ix2 k q) := by
  unfold k0_pay1
  exact Cert.Lib.ContractPlain.matmulZero_apply _ rfl none _ _ p q

/-- The printed index maps over the fifty points: the row block of the left operand moves with the result's,
    its column block and both of the weights' stay at zero, and the result's column block is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every row block of the result is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- What point t writes back is block t of the product of the two arrays the region is entered with. -/
theorem flushed_eq (c : Dev nD) (t : Fin cfg0.N) :
    (dat0 (F := Ideal) V c).flushed 2 t
      = ((cfg0.win 2).blk t).view.read (Elt Ideal) (Cert.ReferenceIdeal.Read.val_main_v4 (V c main_arg0) (V c main_arg3)) := by
  show (cfg0.win 2).cut (grid0.coords t) ((dat0 V c).after 2 t) = _
  rw [after0_2]
  unfold out0_2
  rw [View.canon_unit_zero zero_off]
  simp only [View.ld_unit_zero (S := S2000x256) zero_off, View.ld_unit_zero (S := S256x48) zero_off]
  obtain ⟨e0, e1, e2, e3, e4, e5⟩ := idx_facts t
  funext j
  obtain ⟨p, q, rfl⟩ : ∃ (p : Fin 2000) (q : Fin 48), j = ix2 p q := ⟨j 0, j 1, eq_ix2 j⟩
  show k0_pay1 (iblk0 V c 0 t) (iblk0 V c 1 t) (ix2 p q)
      = Cert.ReferenceIdeal.Read.val_main_v4 (V c main_arg0) (V c main_arg3) (((cfg0.win 2).blk t).view.emb (ix2 p q))
  refine (block_at _ _ p q).trans ?_
  rw [Cert.ReferenceIdeal.Read.val_main_v4_apply]
  refine Finset.sum_congr rfl fun k _ => ?_
  have h0 : ((cfg0.win 0).blk t).view.emb (ix2 p k)
      = Cert.ReferenceIdeal.Read.lidx_main_v4 (((cfg0.win 2).blk t).view.emb (ix2 p q)) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ((cfg0.win 1).blk t).view.emb (ix2 k q)
      = Cert.ReferenceIdeal.Read.ridx_main_v4 (((cfg0.win 2).blk t).view.emb (ix2 p q)) k := by
    funext a; apply Fin.ext
    match a with
    | ⟨0, _⟩ => show win0_1.index t (0 : Fin 2) * 256 + 1 * k.val = k.val; omega
    | ⟨1, _⟩ => show win0_1.index t (1 : Fin 2) * 48 + 1 * q.val = win0_2.index t (1 : Fin 2) * 48 + 1 * q.val; omega
  have hx : iblk0 V c 0 t (ix2 p k) = V c main_arg0 (Cert.ReferenceIdeal.Read.lidx_main_v4 (((cfg0.win 2).blk t).view.emb (ix2 p q)) k) := by
    show V c main_arg0 (((cfg0.win 0).blk t).view.emb (ix2 p k)) = _
    rw [h0]
  have hy : iblk0 V c 1 t (ix2 k q) = V c main_arg3 (Cert.ReferenceIdeal.Read.ridx_main_v4 (((cfg0.win 2).blk t).view.emb (ix2 p q)) k) := by
    show V c main_arg3 (((cfg0.win 1).blk t).view.emb (ix2 k q)) = _
    rw [h1]
  rw [hx, hy]

/-- An index of the result array is in point t's block iff each coordinate is in the block's range on its axis. -/
theorem mem_blk (t : Fin cfg0.N) (i : S100000x48.Idx) :
    i ∈ ((cfg0.win 2).blk t).view.set ↔ ∀ a : Fin 2, win0_2.index t a * S2000x48.size a ≤ (i a).val ∧ (i a).val < win0_2.index t a * S2000x48.size a + S2000x48.size a := by
  show i ∈ ((View.whole main_v5).slice (win0_2.rect t)).set ↔ _
  rw [View.set_slice_whole, Rect.mem_set_unit]
  exact Iff.rfl

/-- The row blocks tile the array: row r is in the block of the point r / 2000. -/
theorem cover (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 48 ≤ (i 1).val ∧ (i 1).val < win0_2.index t (1 : Fin 2) * 48 + 48; omega

/-- After the region the result array holds the product of the two arrays the region was entered with. -/
theorem final (c : Dev nD) :
    (dat0 (F := Ideal) V c).arrAt 2 cfg0.N = Cert.ReferenceIdeal.Read.val_main_v4 (V c main_arg0) (V c main_arg3) :=
  (dat0 V c).arrAt_eq_of_cover 2 _ (fun t _ => flushed_eq V c t) cover

end Cert.KernelIdeal.Layer1

end
-- ==== Proof.Region1.lean ====
/-
  The activation between the two layers: what its grid region leaves in its result array.

  The region has fifty points. Point t reads rows 2000·t … 2000·t + 1999 of the aggregated features A and of the
  mask M, and the one row b of biases, and writes on those rows  max (A (r, j) + b (0, j), 0) · M (r, j).
  The row blocks tile the 100000 × 48 array, so after the region every entry (r, j) of the array holds that value
  of the three arrays the region was entered with.
-/
import proofs.«118729_j87814901334231_1_alg».proof.Proof.Gen.KernelIdeal.Frame
import proofs.«118729_j87814901334231_1_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.KernelIdeal.Activation

open Cert.KernelIdeal Cert.KernelIdeal.Gen
open Idealize.ShloMosaic Idealize.ShloMosaic.TcCoe Idealize.ShloMosaic.ValueIdx Idealize.SL.Sem
open Idealize.ShloMosaic.Pipeline (Dat)

-- the buffer contents the region is entered with: any
variable (V : (c : Dev nD) → (b : Ref sig .tc) → Buf (Elt Ideal) ((c : Thread nD τ).loc b))

theorem zero_off : (![0, 0] : Fin 2 → Nat) = fun _ => 0 := funext fun a => by fin_cases a <;> rfl

/-- The bias row's entry under (r, j): (0, j). -/
abbrev biasAt (i : S100000x48.Idx) : S1x48.Idx := fun a => match a with
  | ⟨0, _⟩ => ⟨0, Nat.one_pos⟩
  | ⟨1, _⟩ => ⟨(i 1).val, (i 1).isLt⟩

/-- The activation of three whole arrays, entry by entry: max (A + b, 0) · M, the bias read on its one row. -/
def act (A : FVec Ideal S100000x48 .f32) (b : FVec Ideal S1x48 .f32) (M : FVec Ideal S100000x48 .f32) :
    FVec Ideal S100000x48 .f32 :=
  fun i => FloatOps.mulf (F := Ideal) (FloatOps.maximumf (F := Ideal) (FloatOps.addf (F := Ideal) (A i) (b (biasAt i))) (FloatOps.ofBits (F := Ideal) .f32 0x00000000#32)) (M i)

/-- One block's value at entry (p, q): the two casts keep their shapes, the bias row is repeated over the block's
    rows, and the zero the maximum is taken against is a splat. -/
theorem block_at (x0 : FVec Ideal S2000x48 .f32) (x1 : FVec Ideal S1x48 .f32) (x2 : FVec Ideal S2000x48 .f32)
    (p : Fin 2000) (q : Fin 48) :
    k1_pay1 (F := Ideal) x0 x1 x2 (ix2 p q)
      = FloatOps.mulf (F := Ideal) (FloatOps.maximumf (F := Ideal) (FloatOps.addf (F := Ideal) (x0 (ix2 p q)) (x1 (ix2 (0 : Fin 1) q))) (FloatOps.ofBits (F := Ideal) .f32 0x00000000#32)) (x2 (ix2 p q)) := by
  unfold k1_pay1
  simp only [shapeCast_self]
  show FloatOps.mulf (F := Ideal) (FloatOps.maximumf (F := Ideal) (FloatOps.addf (F := Ideal) (x0 (ix2 p q)) (broadcastTo S2000x48 x1 broadcasts_S1x48_S2000x48 (ix2 p q))) (FloatOps.ofBits (F := Ideal) .f32 0x00000000#32)) (x2 (ix2 p q)) = _
  rw [broadcastTo_1b_ab_apply]

/-- The printed index maps over the fifty points: the row blocks of the aggregate and of the mask move with the
    result's, every column block is zero, and the bias row's block is fixed. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = win1_3.index t (0 : Fin 2)
    ∧ win1_2.index t (1 : Fin 2) = 0
    ∧ win1_3.index t (1 : Fin 2) = 0
    ∧ win1_3.index t (0 : Fin 2) ≤ 49 :=
  (by decide +kernel : ∀ t : Fin grid1.N, _)

/-- Every row block of the result is some point's. -/
theorem idx_onto : ∀ q0 : Fin 50, ∃ t : Fin cfg1.N, win1_3.index t = ![q0.val, 0] :=
  (by decide +kernel : ∀ q0 : Fin 50, ∃ t : Fin grid1.N, win1_3.index t = ![q0.val, 0])

/-- What point t writes back is block t of the activation of the three arrays the region is entered with. -/
theorem flushed_eq (c : Dev nD) (t : Fin cfg1.N) :
    (dat1 (F := Ideal) V c).flushed 3 t
      = ((cfg1.win 3).blk t).view.read (Elt Ideal) (act (V c main_v17) (V c main_v18) (V c main_arg7)) := by
  show (cfg1.win 3).cut (grid1.coords t) ((dat1 V c).after 3 t) = _
  rw [after1_3]
  unfold out1_3
  rw [View.canon_unit_zero zero_off]
  simp only [View.ld_unit_zero (S := S2000x48) zero_off, View.ld_unit_zero (S := S1x48) zero_off]
  obtain ⟨e0, e1, e2, e3, e4, e5, e6, e7⟩ := idx_facts t
  funext j
  obtain ⟨p, q, rfl⟩ : ∃ (p : Fin 2000) (q : Fin 48), j = ix2 p q := ⟨j 0, j 1, eq_ix2 j⟩
  show k1_pay1 (iblk1 V c 0 t) (iblk1 V c 1 t) (iblk1 V c 2 t) (ix2 p q)
      = act (V c main_v17) (V c main_v18) (V c main_arg7) (((cfg1.win 3).blk t).view.emb (ix2 p q))
  refine (block_at _ _ _ p q).trans ?_
  have h0 : ((cfg1.win 0).blk t).view.emb (ix2 p q) = ((cfg1.win 3).blk t).view.emb (ix2 p q) := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 48 + 1 * q.val = win1_3.index t (1 : Fin 2) * 48 + 1 * q.val; omega
  have h1 : ((cfg1.win 1).blk t).view.emb (ix2 (0 : Fin 1) q) = biasAt (((cfg1.win 3).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 48 + 1 * q.val = win1_3.index t (1 : Fin 2) * 48 + 1 * q.val; omega
  have h2 : ((cfg1.win 2).blk t).view.emb (ix2 p q) = ((cfg1.win 3).blk t).view.emb (ix2 p q) := by
    funext a; apply Fin.ext
    match a with
    | ⟨0, _⟩ => show win1_2.index t (0 : Fin 2) * 2000 + 1 * p.val = win1_3.index t (0 : Fin 2) * 2000 + 1 * p.val; omega
    | ⟨1, _⟩ => show win1_2.index t (1 : Fin 2) * 48 + 1 * q.val = win1_3.index t (1 : Fin 2) * 48 + 1 * q.val; omega
  have hx : iblk1 V c 0 t (ix2 p q) = V c main_v17 (((cfg1.win 3).blk t).view.emb (ix2 p q)) := by
    show V c main_v17 (((cfg1.win 0).blk t).view.emb (ix2 p q)) = _
    rw [h0]
  have hb : iblk1 V c 1 t (ix2 (0 : Fin 1) q) = V c main_v18 (biasAt (((cfg1.win 3).blk t).view.emb (ix2 p q))) := by
    show V c main_v18 (((cfg1.win 1).blk t).view.emb (ix2 (0 : Fin 1) q)) = _
    rw [h1]
  have hm : iblk1 V c 2 t (ix2 p q) = V c main_arg7 (((cfg1.win 3).blk t).view.emb (ix2 p q)) := by
    show V c main_arg7 (((cfg1.win 2).blk t).view.emb (ix2 p q)) = _
    rw [h2]
  rw [hx, hb, hm]
  rfl

/-- An index of the result array is in point t's block iff each coordinate is in the block's range on its axis. -/
theorem mem_blk (t : Fin cfg1.N) (i : S100000x48.Idx) :
    i ∈ ((cfg1.win 3).blk t).view.set ↔ ∀ a : Fin 2, win1_3.index t a * S2000x48.size a ≤ (i a).val ∧ (i a).val < win1_3.index t a * S2000x48.size a + S2000x48.size a := by
  show i ∈ ((View.whole main_v19).slice (win1_3.rect t)).set ↔ _
  rw [View.set_slice_whole, Rect.mem_set_unit]
  exact Iff.rfl

/-- The row blocks tile the array: row r is in the block of the point r / 2000. -/
theorem cover (i : S100000x48.Idx) :
    ∃ t : Fin cfg1.N, (cfg1.win 3).flush t = true ∧ i ∈ ((cfg1.win 3).blk t).view.set := by
  have hi0 : (i 0).val < 100000 := (i 0).isLt
  have hi1 : (i 1).val < 48 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 48 ≤ (i 1).val ∧ (i 1).val < win1_3.index t (1 : Fin 2) * 48 + 48; omega

/-- After the region the result array holds the activation of the three arrays the region was entered with. -/
theorem final (c : Dev nD) :
    (dat1 (F := Ideal) V c).arrAt 3 cfg1.N = act (V c main_v17) (V c main_v18) (V c main_arg7) :=
  (dat1 V c).arrAt_eq_of_cover 3 _ (fun t _ => flushed_eq V c t) cover

end Cert.KernelIdeal.Activation

end
-- ==== Proof.Region2.lean ====
/-
  The second linear layer: what its grid region leaves in its result array.

  The region has fifty points. Point t multiplies rows 2000·t … 2000·t + 1999 of the hidden features (48 columns) by
  the whole 48 × 16 weight matrix and writes those rows of the product. The row blocks tile the 100000 × 16 array,
  so after the region the array holds the product of the two matrices the region was entered with: entry (r, j) is
  the sum over k of H (r, k) · W (k, j) — the same finite sum the host's contraction of the whole matrices has there.
-/
import proofs.«118729_j87814901334231_1_alg».proof.Proof.Gen.KernelIdeal.Frame
import proofs.«118729_j87814901334231_1_alg».proof.Proof.Gen.ReferenceIdeal.Read
import proofs.«118729_j87814901334231_1_alg».proof.Proof.LibContractPlain
import Idealize.ShloMosaic.Lib.Pipeline.Value
import Idealize.ShloMosaic.Lib.ValueIdx

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

-- the buffer contents the region is entered with: any
variable (V : (c : Dev nD) → (b : Ref sig .tc) → Buf (Elt Ideal) ((c : Thread nD τ).loc b))

theorem zero_off : (![0, 0] : Fin 2 → Nat) = fun _ => 0 := funext fun a => by fin_cases a <;> rfl

/-- The host's contraction of a whole 100000 × 48 matrix with a whole 48 × 16 matrix. -/
def product (A : (⟨Cert.ReferenceIdeal.S100000x48, .f32⟩ : BufTy).Contents (Elt Ideal)) (B : (⟨Cert.ReferenceIdeal.S48x16, .f32⟩ : BufTy).Contents (Elt Ideal)) :
    (⟨Cert.ReferenceIdeal.S100000x16, .f32⟩ : BufTy).Contents (Elt Ideal) :=
  Host.dotGeneral (F := Ideal) (φ₁ := .f32) (φ₂ := .f32) Cert.ReferenceIdeal.dot_S100000x48_S48x16_S100000x16_1_0_0_1_n_n none A B

/-- Its entry at an index i: the sum over k of the left matrix at (row of i, k) times the right at (k, column of i). -/
theorem product_apply (A : (⟨Cert.ReferenceIdeal.S100000x48, .f32⟩ : BufTy).Contents (Elt Ideal)) (B : (⟨Cert.ReferenceIdeal.S48x16, .f32⟩ : BufTy).Contents (Elt Ideal))
    (i : Cert.ReferenceIdeal.S100000x16.Idx) :
    product A B i = ∑ k : Fin 48, A (Cert.ReferenceIdeal.Read.lidx_main_v23 i k) * B (Cert.ReferenceIdeal.Read.ridx_main_v23 i k) := by
  obtain ⟨r, j, rfl⟩ : ∃ (r : Fin 100000) (j : Fin 16), i = ix2 r j := ⟨i 0, i 1, eq_ix2 i⟩
  unfold product
  refine (Cert.Lib.ContractPlain.hostDot_apply _ rfl none A B r j).trans ?_
  refine Finset.sum_congr rfl fun k _ => ?_
  have el : (ix2 r k : Cert.ReferenceIdeal.S100000x48.Idx) = Cert.ReferenceIdeal.Read.lidx_main_v23 (ix2 r j) k :=
    funext fun a => by match a with | ⟨0, _⟩ => rfl | ⟨1, _⟩ => rfl
  have er : (ix2 k j : Cert.ReferenceIdeal.S48x16.Idx) = Cert.ReferenceIdeal.Read.ridx_main_v23 (ix2 r j) k :=
    funext fun a => by match a with | ⟨0, _⟩ => rfl | ⟨1, _⟩ => rfl
  rw [el, er]

/-- One block's product at entry (p, q): the sum over the contracted coordinate k of the row block at (p, k) times
    the weights at (k, q). The narrowing of both operands before the product is the identity on the extended reals,
    and the accumulator the product is added into is zero. -/
theorem block_at (x0 : Vec Ideal S2000x48 .f32) (x1 : Vec Ideal S48x16 .f32) (p : Fin 2000) (q : Fin 16) :
    k2_pay1 (F := Ideal) x0 x1 (ix2 p q) = ∑ k : Fin 48, x0 (ix2 p k) * x1 (ix2 k q) := by
  unfold k2_pay1
  simp only [shapeCast_self]
  exact Cert.Lib.ContractPlain.matmulZero_apply _ rfl none _ _ p q

/-- The printed index maps over the fifty points: the row block of the left operand moves with the result's,
    its column block and both of the weights' stay at zero, and the result's column block is zero. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 49 :=
  (by decide +kernel : ∀ t : Fin grid2.N, _)

/-- Every row block of the result is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

/-- What point t writes back is block t of the product of the two arrays the region is entered with. -/
theorem flushed_eq (c : Dev nD) (t : Fin cfg2.N) :
    (dat2 (F := Ideal) V c).flushed 2 t
      = ((cfg2.win 2).blk t).view.read (Elt Ideal) (product (V c main_v19) (V c main_arg5)) := by
  show (cfg2.win 2).cut (grid2.coords t) ((dat2 V c).after 2 t) = _
  rw [after2_2]
  unfold out2_2
  rw [View.canon_unit_zero zero_off]
  simp only [View.ld_unit_zero (S := S2000x48) zero_off, View.ld_unit_zero (S := S48x16) zero_off]
  obtain ⟨e0, e1, e2, e3, e4, e5⟩ := idx_facts t
  funext j
  obtain ⟨p, q, rfl⟩ : ∃ (p : Fin 2000) (q : Fin 16), j = ix2 p q := ⟨j 0, j 1, eq_ix2 j⟩
  show k2_pay1 (iblk2 V c 0 t) (iblk2 V c 1 t) (ix2 p q)
      = product (V c main_v19) (V c main_arg5) (((cfg2.win 2).blk t).view.emb (ix2 p q))
  refine (block_at _ _ p q).trans ?_
  rw [product_apply]
  refine Finset.sum_congr rfl fun k _ => ?_
  have h0 : ((cfg2.win 0).blk t).view.emb (ix2 p k)
      = Cert.ReferenceIdeal.Read.lidx_main_v23 (((cfg2.win 2).blk t).view.emb (ix2 p q)) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 48 + 1 * k.val = k.val; omega
  have h1 : ((cfg2.win 1).blk t).view.emb (ix2 k q)
      = Cert.ReferenceIdeal.Read.ridx_main_v23 (((cfg2.win 2).blk t).view.emb (ix2 p q)) k := by
    funext a; apply Fin.ext
    match a with
    | ⟨0, _⟩ => show win2_1.index t (0 : Fin 2) * 48 + 1 * k.val = k.val; omega
    | ⟨1, _⟩ => show win2_1.index t (1 : Fin 2) * 16 + 1 * q.val = win2_2.index t (1 : Fin 2) * 16 + 1 * q.val; omega
  have hx : iblk2 V c 0 t (ix2 p k) = V c main_v19 (Cert.ReferenceIdeal.Read.lidx_main_v23 (((cfg2.win 2).blk t).view.emb (ix2 p q)) k) := by
    show V c main_v19 (((cfg2.win 0).blk t).view.emb (ix2 p k)) = _
    rw [h0]
  have hy : iblk2 V c 1 t (ix2 k q) = V c main_arg5 (Cert.ReferenceIdeal.Read.ridx_main_v23 (((cfg2.win 2).blk t).view.emb (ix2 p q)) k) := by
    show V c main_arg5 (((cfg2.win 1).blk t).view.emb (ix2 k q)) = _
    rw [h1]
  rw [hx, hy]

/-- An index of the result array is in point t's block iff each coordinate is in the block's range on its axis. -/
theorem mem_blk (t : Fin cfg2.N) (i : S100000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v20).slice (win2_2.rect t)).set ↔ _
  rw [View.set_slice_whole, Rect.mem_set_unit]
  exact Iff.rfl

/-- The row blocks tile the array: row r is in the block of the point r / 2000. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- After the region the result array holds the product of the two arrays the region was entered with. -/
theorem final (c : Dev nD) :
    (dat2 (F := Ideal) V c).arrAt 2 cfg2.N = product (V c main_v19) (V c main_arg5) :=
  (dat2 V c).arrAt_eq_of_cover 2 _ (fun t _ => flushed_eq V c t) cover

end Cert.KernelIdeal.Layer2

end
-- ==== Proof.Walk.lean ====
/-
  The idealized kernel's result array as a function of its arguments.

  The run passes six boundaries: after the first host stretch (the source and destination rows of the edge list and
  the edge weights as a column), after the first linear layer, after the first aggregation over the edges (a gather of
  the source nodes' rows, scaled by the edge weights, summed into the destination nodes' rows), after the activation,
  after the second linear layer, and after the second aggregation and the last bias. At each boundary every buffer the
  result depends on is named here as a function of the launched arguments — each time the function the reference
  computes at the same place, so that the gathers and the sums over the edges are never opened: they are applied to
  equal arrays on both sides. The three grid regions contribute their whole-array results; the buffers no region and
  no host operation writes are carried through.
-/
import proofs.«118729_j87814901334231_1_alg».proof.Proof.Gen.KernelIdeal.Frame
import proofs.«118729_j87814901334231_1_alg».proof.Proof.Gen.ReferenceIdeal.Read
import proofs.«118729_j87814901334231_1_alg».proof.Proof.Region0
import proofs.«118729_j87814901334231_1_alg».proof.Proof.Region1
import proofs.«118729_j87814901334231_1_alg».proof.Proof.Region2
import Idealize.ShloMosaic.Lib.StableHlo.Run
import Idealize.ShloMosaic.Lib.Pipeline.Value
import Idealize.ShloMosaic.Lib.ValueIdx

set_option maxRecDepth 16384

noncomputable section

namespace Cert.KernelIdeal.Walk

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## After the first host stretch -/

theorem b1_src : W1 m ρ c (Proc.devRef .tc main_v1) = val_main_v1 (F := Ideal) (m ((c : Thread nD τ).loc main_arg1)) := by
  show StableHlo.after hostOps0 (W0 m ρ c) (Proc.devRef .tc main_v1) = _
  dsimp only [hostOps0]
  after_results
  rfl
theorem b1_dst : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results
  rfl
theorem b1_ew : W1 m ρ c (Proc.devRef .tc main_v4) = val_main_v12 (F := Ideal) (m ((c : Thread nD τ).loc main_arg2)) := by
  show StableHlo.after hostOps0 (W0 m ρ c) (Proc.devRef .tc main_v4) = _
  dsimp only [hostOps0]
  after_results
  rfl
theorem b1_arg0 : W1 m ρ c (Proc.devRef .tc main_arg0) = (m ((c : Thread nD τ).loc main_arg0)) := by
  show StableHlo.after hostOps0 (W0 m ρ c) (Proc.devRef .tc main_arg0) = _
  dsimp only [hostOps0]
  after_results <;> rfl
theorem b1_arg3 : W1 m ρ c (Proc.devRef .tc main_arg3) = (m ((c : Thread nD τ).loc main_arg3)) := by
  show StableHlo.after hostOps0 (W0 m ρ c) (Proc.devRef .tc main_arg3) = _
  dsimp only [hostOps0]
  after_results <;> rfl
theorem b1_arg4 : W1 m ρ c (Proc.devRef .tc main_arg4) = (m ((c : Thread nD τ).loc main_arg4)) := by
  show StableHlo.after hostOps0 (W0 m ρ c) (Proc.devRef .tc main_arg4) = _
  dsimp only [hostOps0]
  after_results <;> rfl
theorem b1_arg5 : W1 m ρ c (Proc.devRef .tc main_arg5) = (m ((c : Thread nD τ).loc main_arg5)) := by
  show StableHlo.after hostOps0 (W0 m ρ c) (Proc.devRef .tc main_arg5) = _
  dsimp only [hostOps0]
  after_results <;> rfl
theorem b1_arg6 : W1 m ρ c (Proc.devRef .tc main_arg6) = (m ((c : Thread nD τ).loc main_arg6)) := by
  show StableHlo.after hostOps0 (W0 m ρ c) (Proc.devRef .tc main_arg6) = _
  dsimp only [hostOps0]
  after_results <;> rfl
theorem b1_arg7 : W1 m ρ c (Proc.devRef .tc main_arg7) = (m ((c : Thread nD τ).loc main_arg7)) := by
  show StableHlo.after hostOps0 (W0 m ρ c) (Proc.devRef .tc main_arg7) = _
  dsimp only [hostOps0]
  after_results <;> rfl

/-! ## After the first linear layer -/

/-- The first layer's result: the product of the node features and the first weights. -/
theorem b2_lin : W2 m ρ c (Proc.devRef .tc main_v5) = val_main_v4 (F := Ideal) (m ((c : Thread nD τ).loc main_arg0)) (m ((c : Thread nD τ).loc main_arg3)) := by
  refine (W2_arr m ρ c 2).trans ((Cert.KernelIdeal.Layer1.final (V1 m ρ) c).trans ?_)
  show val_main_v4 (F := Ideal) (W1 m ρ c (Proc.devRef .tc main_arg0)) (W1 m ρ c (Proc.devRef .tc main_arg3)) = _
  rw [b1_arg0 m ρ c, b1_arg3 m ρ c]
theorem b2_src : W2 m ρ c (Proc.devRef .tc main_v1) = val_main_v1 (F := Ideal) (m ((c : Thread nD τ).loc main_arg1)) :=
  (W2_of_ne m ρ c main_v1 (by decide)).trans (b1_src m ρ c)
theorem b2_dst : W2 m ρ c (Proc.devRef .tc main_v3) = val_main_v3 (F := Ideal) (m ((c : Thread nD τ).loc main_arg1)) :=
  (W2_of_ne m ρ c main_v3 (by decide)).trans (b1_dst m ρ c)
theorem b2_ew : W2 m ρ c (Proc.devRef .tc main_v4) = val_main_v12 (F := Ideal) (m ((c : Thread nD τ).loc main_arg2)) :=
  (W2_of_ne m ρ c main_v4 (by decide)).trans (b1_ew m ρ c)
theorem b2_arg4 : W2 m ρ c (Proc.devRef .tc main_arg4) = (m ((c : Thread nD τ).loc main_arg4)) :=
  (W2_of_ne m ρ c main_arg4 (by decide)).trans (b1_arg4 m ρ c)
theorem b2_arg5 : W2 m ρ c (Proc.devRef .tc main_arg5) = (m ((c : Thread nD τ).loc main_arg5)) :=
  (W2_of_ne m ρ c main_arg5 (by decide)).trans (b1_arg5 m ρ c)
theorem b2_arg6 : W2 m ρ c (Proc.devRef .tc main_arg6) = (m ((c : Thread nD τ).loc main_arg6)) :=
  (W2_of_ne m ρ c main_arg6 (by decide)).trans (b1_arg6 m ρ c)
theorem b2_arg7 : W2 m ρ c (Proc.devRef .tc main_arg7) = (m ((c : Thread nD τ).loc main_arg7)) :=
  (W2_of_ne m ρ c main_arg7 (by decide)).trans (b1_arg7 m ρ c)

/-! ## After the first aggregation -/

/-- The first aggregation: the kernel's host operations are the reference's, applied to equal arrays. -/
theorem b3_agg : W3 m ρ c (Proc.devRef .tc main_v17) = val_main_v17 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v17) = _
  dsimp only [hostOps1]
  after_results
  rw [b2_lin m ρ c, b2_src m ρ c, b2_dst m ρ c, b2_ew m ρ c]
  rfl
/-- The bias of the first layer as one row. -/
theorem b3_bias : W3 m ρ c (Proc.devRef .tc main_v18) = shapeCast S1x48 ((m ((c : Thread nD τ).loc main_arg4)) : S48.Idx → Elt Ideal .f32) shapeCasts_S48_S1x48 := by
  show StableHlo.after hostOps1 (W2 m ρ c) (Proc.devRef .tc main_v18) = _
  dsimp only [hostOps1]
  after_results
  rw [b2_arg4 m ρ c]
  rfl
theorem b3_src : W3 m ρ c (Proc.devRef .tc main_v1) = val_main_v1 (F := Ideal) (m ((c : Thread nD τ).loc main_arg1)) := by
  show StableHlo.after hostOps1 (W2 m ρ c) (Proc.devRef .tc main_v1) = _
  dsimp only [hostOps1]
  after_results
  exact b2_src m ρ c
theorem b3_dst : W3 m ρ c (Proc.devRef .tc main_v3) = val_main_v3 (F := Ideal) (m ((c : Thread nD τ).loc main_arg1)) := by
  show StableHlo.after hostOps1 (W2 m ρ c) (Proc.devRef .tc main_v3) = _
  dsimp only [hostOps1]
  after_results
  exact b2_dst m ρ c
theorem b3_ew : W3 m ρ c (Proc.devRef .tc main_v4) = val_main_v12 (F := Ideal) (m ((c : Thread nD τ).loc main_arg2)) := by
  show StableHlo.after hostOps1 (W2 m ρ c) (Proc.devRef .tc main_v4) = _
  dsimp only [hostOps1]
  after_results
  exact b2_ew m ρ c
theorem b3_arg5 : W3 m ρ c (Proc.devRef .tc main_arg5) = (m ((c : Thread nD τ).loc main_arg5)) := by
  show StableHlo.after hostOps1 (W2 m ρ c) (Proc.devRef .tc main_arg5) = _
  dsimp only [hostOps1]
  after_results
  exact b2_arg5 m ρ c
theorem b3_arg6 : W3 m ρ c (Proc.devRef .tc main_arg6) = (m ((c : Thread nD τ).loc main_arg6)) := by
  show StableHlo.after hostOps1 (W2 m ρ c) (Proc.devRef .tc main_arg6) = _
  dsimp only [hostOps1]
  after_results
  exact b2_arg6 m ρ c
theorem b3_arg7 : W3 m ρ c (Proc.devRef .tc main_arg7) = (m ((c : Thread nD τ).loc main_arg7)) := by
  show StableHlo.after hostOps1 (W2 m ρ c) (Proc.devRef .tc main_arg7) = _
  dsimp only [hostOps1]
  after_results
  exact b2_arg7 m ρ c

/-! ## After the activation -/

/-- The bias row, a cast of the 48 biases to one row, read under (r, j): bias j. -/
theorem bias_row (x4 : S48.Idx → Elt Ideal .f32) (i : S100000x48.Idx) :
    shapeCast S1x48 x4 shapeCasts_S48_S1x48 (Cert.KernelIdeal.Activation.biasAt i) = x4 (idx_main_v18 (idx_main_v19 i)) :=
  shapeCast_apply x4 shapeCasts_S48_S1x48 (Cert.KernelIdeal.Activation.biasAt i) (idx_main_v18 (idx_main_v19 i))
    (by rewrite [Shape.rowMajor_val_one, Shape.rowMajor_val_two]; show (i 1).val = 0 * 48 + (i 1).val; omega)

/-- The activation of the aggregate, the bias row and the mask is the reference's: the sum with the bias repeated over
    the rows, its maximum with zero, the product with the mask, entry by entry. -/
theorem act_eq : Cert.KernelIdeal.Activation.act (val_main_v17 (F := Ideal) (m ((c : Thread nD τ).loc main_arg0)) (m ((c : Thread nD τ).loc main_arg1)) (m ((c : Thread nD τ).loc main_arg2)) (m ((c : Thread nD τ).loc main_arg3))) (shapeCast S1x48 ((m ((c : Thread nD τ).loc main_arg4)) : S48.Idx → Elt Ideal .f32) shapeCasts_S48_S1x48) (m ((c : Thread nD τ).loc main_arg7)) = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  funext i
  rw [val_main_v22_apply, val_main_v21_apply, val_main_v20_apply, val_main_v19_apply, val_main_v18_apply,
    val_main_call0_v0_apply, val_main_call0_cst_apply]
  unfold Cert.KernelIdeal.Activation.act
  rw [bias_row]

theorem b4_act : W4 m ρ c (Proc.devRef .tc main_v19) = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W4_arr m ρ c 3).trans ((Cert.KernelIdeal.Activation.final (V3 m ρ) c).trans ?_)
  show Cert.KernelIdeal.Activation.act (W3 m ρ c (Proc.devRef .tc main_v17)) (W3 m ρ c (Proc.devRef .tc main_v18)) (W3 m ρ c (Proc.devRef .tc main_arg7)) = _
  rw [b3_agg m ρ c, b3_bias m ρ c, b3_arg7 m ρ c]
  exact act_eq m c
theorem b4_src : W4 m ρ c (Proc.devRef .tc main_v1) = val_main_v1 (F := Ideal) (m ((c : Thread nD τ).loc main_arg1)) :=
  (W4_of_ne m ρ c main_v1 (by decide)).trans (b3_src m ρ c)
theorem b4_dst : W4 m ρ c (Proc.devRef .tc main_v3) = val_main_v3 (F := Ideal) (m ((c : Thread nD τ).loc main_arg1)) :=
  (W4_of_ne m ρ c main_v3 (by decide)).trans (b3_dst m ρ c)
theorem b4_ew : W4 m ρ c (Proc.devRef .tc main_v4) = val_main_v12 (F := Ideal) (m ((c : Thread nD τ).loc main_arg2)) :=
  (W4_of_ne m ρ c main_v4 (by decide)).trans (b3_ew m ρ c)
theorem b4_arg5 : W4 m ρ c (Proc.devRef .tc main_arg5) = (m ((c : Thread nD τ).loc main_arg5)) :=
  (W4_of_ne m ρ c main_arg5 (by decide)).trans (b3_arg5 m ρ c)
theorem b4_arg6 : W4 m ρ c (Proc.devRef .tc main_arg6) = (m ((c : Thread nD τ).loc main_arg6)) :=
  (W4_of_ne m ρ c main_arg6 (by decide)).trans (b3_arg6 m ρ c)

/-! ## After the second linear layer -/

/-- The second layer's result: the product of the hidden features and the second weights. -/
theorem b5_lin : W5 m ρ c (Proc.devRef .tc main_v20) = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W5_arr m ρ c 2).trans ((Cert.KernelIdeal.Layer2.final (V4 m ρ) c).trans ?_)
  show Cert.KernelIdeal.Layer2.product (W4 m ρ c (Proc.devRef .tc main_v19)) (W4 m ρ c (Proc.devRef .tc main_arg5)) = _
  rw [b4_act m ρ c, b4_arg5 m ρ c]
  rfl
theorem b5_src : W5 m ρ c (Proc.devRef .tc main_v1) = val_main_v1 (F := Ideal) (m ((c : Thread nD τ).loc main_arg1)) :=
  (W5_of_ne m ρ c main_v1 (by decide)).trans (b4_src m ρ c)
theorem b5_dst : W5 m ρ c (Proc.devRef .tc main_v3) = val_main_v3 (F := Ideal) (m ((c : Thread nD τ).loc main_arg1)) :=
  (W5_of_ne m ρ c main_v3 (by decide)).trans (b4_dst m ρ c)
theorem b5_ew : W5 m ρ c (Proc.devRef .tc main_v4) = val_main_v12 (F := Ideal) (m ((c : Thread nD τ).loc main_arg2)) :=
  (W5_of_ne m ρ c main_v4 (by decide)).trans (b4_ew m ρ c)
theorem b5_arg6 : W5 m ρ c (Proc.devRef .tc main_arg6) = (m ((c : Thread nD τ).loc main_arg6)) :=
  (W5_of_ne m ρ c main_arg6 (by decide)).trans (b4_arg6 m ρ c)

end Cert.KernelIdeal.Walk

end
-- ==== Proof.Result.lean ====
/-
  The idealized kernel's result array as a function of its arguments: the last boundary.

  The last host stretch gathers the source nodes' rows of the second product, scales them by the edge weights, sums
  them into the destination nodes' rows and adds the second bias. These are the reference's last operations, and by
  the walk through the earlier boundaries they are applied to the arrays the reference applies them to.
-/
import proofs.«118729_j87814901334231_1_alg».proof.Proof.Walk

set_option maxRecDepth 16384

noncomputable section

namespace Cert.KernelIdeal.Walk

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 2000000 in
/-- The result array after the run is the reference's result of the launched arguments. -/
theorem result : W6 m ρ c (Proc.devRef .tc main_v35) = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W5 m ρ c) (Proc.devRef .tc main_v35) = _
  dsimp only [hostOps3]
  after_results_simp
  rw [b5_lin m ρ c, b5_src m ρ c, b5_dst m ρ c, b5_ew m ρ c, b5_arg6 m ρ c]
  rfl

end Cert.KernelIdeal.Walk

end
-- ==== Proof.RefValue.lean ====
/-
  The reference's result as a function of its arguments.

  The reference is a straight line of host operations: its run ends with the result array at the operations' composed
  term of the launched arguments, and that term is the last of the reference's stages — the second aggregation plus
  the second bias, over the second product, over the activation, over the first aggregation plus the first bias, over
  the first product.
-/
import proofs.«118729_j87814901334231_1_alg».proof.Defs
import proofs.«118729_j87814901334231_1_alg».proof.Proof.Gen.ReferenceIdeal.Run
import proofs.«118729_j87814901334231_1_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.TcCoe Idealize.SL.Sem

/-- Every weakly fair execution of the reference terminates with the result array at its last stage of the launched
    arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39)
        = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (val_main_v39_eq _ _ _ _ _ _ _ _), (h c).2⟩)
    (Cert.ReferenceIdeal.Value.run (F := Ideal) m ρ)

end Cert.ReferenceIdeal.RefValue

end
-- ==== Proof.lean ====
/-
  A two-layer graph convolution over 100000 nodes and 1600000 weighted edges, tiled, against its plain form.

  Both programs compute, from node features X, an edge list (source row and destination row), edge weights w, two
  weight matrices W₁, W₂, two biases b₁, b₂ and a mask M:

      H  = max (agg (X · W₁) + b₁, 0) · M          out = agg (H · W₂) + b₂

  where agg sends a matrix Z to the matrix whose row d is the sum, over the edges e whose destination is d, of
  w(e) · (row source(e) of Z). The tiled program computes X · W₁, the activation and H · W₂ each in a grid of fifty
  row blocks of 2000 rows, narrowing the operands of its two products to a shorter float format first, and runs the
  two aggregations on the host between them; the plain program runs everything on the host.

  Over the extended reals the narrowing is the identity, a product accumulated into zero is the product, and an
  entry of a product computed on a block of rows is the same finite sum over the contracted coordinate as the entry
  of the product of the whole matrices; the row blocks tile each array. So each of the three grid regions leaves in
  its result array exactly the array the plain program has at the same place, and the host operations between them
  (the gathers, the scalings and the sums over the edges) are the same operations applied to equal arrays. No
  algebraic law beyond that is used, and finiteness of the inputs is never needed: the two results are equal entry
  by entry for every extended-real input.

  The modules: KernelRun (the tiled program's run with its result array named), Region0 / Region1 / Region2 (what
  each grid region leaves, as one function of the arrays it is entered with), Walk and Result (the buffer contents at the six
  boundaries of the run, back to the launched arguments), RefValue (the plain program's result), and here the claims.
-/
import proofs.«118729_j87814901334231_1_alg».proof.Defs
import proofs.«118729_j87814901334231_1_alg».proof.Proof.Gen.Kernel
import proofs.«118729_j87814901334231_1_alg».proof.Proof.Gen.Kernel.Skeleton
import proofs.«118729_j87814901334231_1_alg».proof.Proof.Gen.Kernel.Launch
import proofs.«118729_j87814901334231_1_alg».proof.Proof.Gen.Kernel.Points
import proofs.«118729_j87814901334231_1_alg».proof.Proof.Gen.Kernel.Frame
import proofs.«118729_j87814901334231_1_alg».proof.Proof.Gen.KernelIdeal
import proofs.«118729_j87814901334231_1_alg».proof.Proof.Gen.KernelIdeal.Skeleton
import proofs.«118729_j87814901334231_1_alg».proof.Proof.Gen.KernelIdeal.Launch
import proofs.«118729_j87814901334231_1_alg».proof.Proof.Gen.KernelIdeal.Points
import proofs.«118729_j87814901334231_1_alg».proof.Proof.Gen.KernelIdeal.Frame
import proofs.«118729_j87814901334231_1_alg».proof.Proof.Gen.ReferenceIdeal
import proofs.«118729_j87814901334231_1_alg».proof.Proof.Gen.ReferenceIdeal.Run
import proofs.«118729_j87814901334231_1_alg».proof.Proof.Gen.ReferenceIdeal.Read
import proofs.«118729_j87814901334231_1_alg».proof.Proof.Gen.Pre_finite_inputs
import proofs.«118729_j87814901334231_1_alg».proof.Proof.KernelRun
import proofs.«118729_j87814901334231_1_alg».proof.Proof.Walk
import proofs.«118729_j87814901334231_1_alg».proof.Proof.Result
import proofs.«118729_j87814901334231_1_alg».proof.Proof.RefValue
import Idealize.ShloMosaic.Adequacy
import Idealize.ShloMosaic.Init

noncomputable section

namespace Cert.Proof

open Idealize.ShloMosaic Idealize.ShloMosaic.TcCoe Idealize.SL.Sem

/-- The tiled program as printed runs and keeps its arguments. -/
theorem frame_k : Cert.frame_Kernel := fun m ρ _ => Cert.Kernel.Gen.frame m ρ

/-- The tiled program read over the extended reals runs and keeps its arguments. -/
theorem frame_ki : Cert.frame_KernelIdeal := fun m ρ _ => Cert.KernelIdeal.Gen.frame m ρ

/-- The plain program runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The tiled program's run ends with its result array at the plain program's last stage of the launched arguments
    (the run with the result named, then the six boundaries walked back), and the plain program's at the same stage of
    arguments that agree. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Walk.result m ρ c), (h c).2⟩)
    (Cert.KernelIdeal.Outcome.run_out (F := Ideal) m ρ), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
